-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x8192 : Shape := ⟨2, ![64, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_

variable [Facts]

def fn {F : FTy → Type} [FloatOps F] (main_arg0 : FVec F S8192x64 .f32) (main_arg1 : FVec F S64x8192 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  main_v8
-- ==== Kernel.lean ====
abbrev S8192x64 : Shape := ⟨2, ![8192, 64]⟩
abbrev S64x8192 : Shape := ⟨2, ![64, 8192]⟩
abbrev S8192x8192 : Shape := ⟨2, ![8192, 8192]⟩
abbrev S1024x64 : Shape := ⟨2, ![1024, 64]⟩
abbrev S1024x2048 : Shape := ⟨2, ![1024, 2048]⟩
abbrev S64x2048 : Shape := ⟨2, ![64, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S64x8192, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S64x8192, .f32⟩
  | .local _ .vmem, ⟨3, _⟩ => ⟨S1024x2048, .f32⟩
  | .local _ .vmem, ⟨4, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let c0 : Index := 0#32
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S64x2048 : 0 < S64x2048.numel
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  dot_S1024x64_S64x2048_S1024x2048_1_0_0_1_n_n_wf : DotDims.WF S1024x64 S64x2048 S1024x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S64x2048.size a ≤ S64x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .f32 = 32 ∨ (Rect.block (s := S64x8192) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x8192 : Shape := ⟨2, ![64, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x8192, .f32⟩
  | .hbm, ⟨2, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.BodyValue.lean ====
/-
  What one run of the kernel body leaves in the output's staging buffer. The body reads the whole 1024×64 block of the
  left matrix, reads from the resident 64×8192 right matrix the 64×2048 panel of columns that starts at the column the
  grid point names, and overwrites the whole 1024×2048 output block with their product. (It also reads the output block
  before overwriting it; that value is not used.) So the buffer ends holding the block product of the left block and
  that panel, whatever it held before. This holds at every float instance.
-/
import proofs.«147642_j38276748542446_2_alg».proof.Proof.Gen.KernelIdeal.Frame
import Idealize.ShloMosaic.Lib.Pipeline.Value

set_option maxRecDepth 16384

noncomputable section

namespace Cert.KernelIdeal.BodyValue

open Cert.KernelIdeal Cert.KernelIdeal.Gen Idealize.ShloMosaic Idealize.ShloMosaic.TcCoe Idealize.SL.Sem
open Idealize.ShloMosaic.Tactic

variable {F : FTy → Type} [FloatOps F]

/-- The whole-block rectangle starts at row 0, column 0. -/
theorem origin : (![0, 0] : Fin 2 → Nat) = fun _ => 0 := funext fun a => by fin_cases a <;> rfl

/-- The panel of the resident right matrix that grid point `i` multiplies by: all 64 rows, and the 2048 columns from
    the point's column offset on. -/
abbrev panel (i : grid0.Coords) (right : Vec F S64x8192 .f32) : Vec F S64x2048 .f32 :=
  View.ld right (Rect.unit (s := S64x8192) (k0_off1 i) S64x2048.size (k0_off1_inb i))

/-- After the body, the output's staging buffer holds the block product of the left block and the panel. -/
theorem body_leaves (c : Dev nD) (i : grid0.Coords) (a2 : Memref sig .tc .vmem S1024x64 .f32) (h2 : a2.IsWhole)
    (a3 : Memref sig .tc .vmem S64x8192 .f32) (h3 : a3.IsWhole) (a4 : Memref sig .tc .vmem S1024x2048 .f32) (h4 : a4.IsWhole)
    (left : Vec F S1024x64 .f32) (right : Vec F S64x8192 .f32) :
    out0_A_2 c i a2 h2 a3 h3 a4 h4 left right = k0_pay1 (panel i right) left := by
  unfold out0_A_2
  rw [View.read_writes_eq_canon _ _ _ (cover0_A_2 c i a2 h2 a3 h3 a4 h4 left right)]
  unfold kernelRun0_A
  dsimp only
  rw [View.canon_unit_zero origin]
  simp only [View.readAt_eq_ld, h2.read_unread, h3.read_unread, View.ld_unit_zero (S := S1024x64) origin]

end Cert.KernelIdeal.BodyValue

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.BlockProduct.lean ====
/-
  What the kernel body computes from the two blocks it loads. The body narrows both blocks to bf16 (at exact
  arithmetic a change of format changes nothing), multiplies the 1024×64 block by the 64×2048 panel on the matrix
  unit into a zero accumulator, and stores the result. Read at entry (p, q) the stored block is the sum over k of
  left (p, k) · panel (k, q).
-/
import proofs.«147642_j38276748542446_2_alg».proof.Proof.Gen.KernelIdeal.Skeleton
import proofs.«147642_j38276748542446_2_alg».proof.Proof.LibDotEntry

noncomputable section

namespace Cert.KernelIdeal.BlockValue

open Cert.KernelIdeal Cert.KernelIdeal.Gen Idealize.ShloMosaic Idealize.ShloMosaic.TcCoe Idealize.SL.Sem
open Idealize.ShloMosaic.ValueIdx

/-! Where the block product's dimension numbers send an output index and a contraction index: the left factor is read
    at (output row, k), the right factor at (k, output column). -/

theorem lhs_row (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhs_col (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhs_row (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhs_col (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- The stored block at entry (p, q): the sum over k of the left block's (p, k) times the panel's (k, q). -/
theorem pay_entry (panel : Vec Ideal S64x2048 .f32) (left : Vec Ideal S1024x64 .f32) (p : Fin 1024) (q : Fin 2048) :
    k0_pay1 (F := Ideal) panel left (ix2 p q) = ∑ k : Fin 64, left (ix2 p k) * panel (ix2 k q) := by
  unfold k0_pay1
  exact Cert.Lib.DotEntry.matmul_zero_ix2 dot_S1024x64_S64x2048_S1024x2048_1_0_0_1_n_n rfl rfl lhs_row lhs_col rhs_row rhs_col
    (truncf .bf16 left _) (truncf .bf16 panel _) p q

end Cert.KernelIdeal.BlockValue

end
-- ==== Proof.Product.lean ====
/-
  The product of an 8192×64 matrix by a 64×8192 matrix over the extended reals, entry by entry: the entry in row r
  and column s is the sum, over the 64 values of k, of A (r, k) · B (k, s). This is what both programs compute; it is
  stated here over the literal shapes and no program.
-/
import Idealize.ShloMosaic.Lib.ValueIdx
import Idealize.ShloMosaic.PureOps.Ideal

noncomputable section

namespace Cert.Product

open Idealize.ShloMosaic Idealize.ShloMosaic.ValueIdx

/-- The matrix product A · B: entry (r, s) is the sum over k of A (r, k) · B (k, s). -/
def product (A : FVec Ideal ⟨2, ![8192, 64]⟩ .f32) (B : FVec Ideal ⟨2, ![64, 8192]⟩ .f32) :
    FVec Ideal ⟨2, ![8192, 8192]⟩ .f32 :=
  fun i => ∑ k : Fin 64, A (ix2 (i 0) k) * B (ix2 k (i 1))

/-- The product read at an entry. -/
theorem product_apply (A : FVec Ideal ⟨2, ![8192, 64]⟩ .f32) (B : FVec Ideal ⟨2, ![64, 8192]⟩ .f32)
    (i : (⟨2, ![8192, 8192]⟩ : Shape).Idx) :
    product A B i = ∑ k : Fin 64, A (ix2 (i 0) k) * B (ix2 k (i 1)) := rfl

end Cert.Product

end
-- ==== Proof.ArrayProduct.lean ====
/-
  From the blocks the grid points write to the whole output array. The grid has 8 × 4 points; point (a, b) reads rows
  1024·a … 1024·a + 1023 of the left matrix, the whole right matrix (of which the body takes columns
  2048·b … 2048·b + 2047), and writes block (a, b) of the output: rows 1024·a …, columns 2048·b …. Entry (p, q) of that
  block is the sum over k of left (1024·a + p, k) · right (k, 2048·b + q), which is entry (1024·a + p, 2048·b + q) of the
  product of the two whole matrices. Every output entry lies in exactly the block of the point (row / 1024, column / 2048),
  and every point writes its block back, so after the run the output array is the product.
-/
import proofs.«147642_j38276748542446_2_alg».proof.Proof.Gen.KernelIdeal.Value
import proofs.«147642_j38276748542446_2_alg».proof.Proof.BodyValue
import proofs.«147642_j38276748542446_2_alg».proof.Proof.BlockProduct
import proofs.«147642_j38276748542446_2_alg».proof.Proof.Product

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx
open Cert.Product

variable (m : (ℓ : Loc nD τ sig) → Buf (Elt Ideal) ℓ) (ρ : Dev nD → PrngReg)

/-- An entry of the block product is an entry of the whole product, once the left block's row and the panel's column are
    known to be the whole matrices' row J 0 and column J 1. -/
theorem entry_of_blocks (A : FVec Ideal ⟨2, ![8192, 64]⟩ .f32) (B : FVec Ideal ⟨2, ![64, 8192]⟩ .f32)
    (left : Vec Ideal S1024x64 .f32) (pan : Vec Ideal S64x2048 .f32) (y : S1024x2048.Idx) (J : S8192x8192.Idx)
    (h0 : ∀ k : Fin 64, left (ix2 (y 0) k) = A (ix2 (J 0) k))
    (h1 : ∀ k : Fin 64, pan (ix2 k (y 1)) = B (ix2 k (J 1))) :
    k0_pay1 (F := Ideal) pan left y = product A B J := by
  obtain ⟨p, q, rfl⟩ : ∃ (p : Fin 1024) (q : Fin 2048), y = ix2 p q := ⟨y 0, y 1, eq_ix2 y⟩
  refine (BlockValue.pay_entry pan left p q).trans ?_
  refine (Finset.sum_congr rfl fun k _ => ?_).trans (product_apply A B J).symm
  have e0 : left (ix2 p k) = A (ix2 (J 0) k) := h0 k
  have e1 : pan (ix2 k q) = B (ix2 k (J 1)) := h1 k
  rw [e0, e1] <;> rfl

/-- The printed index maps, decided over the 32 grid points: the left matrix's block follows the output block's row
    index and has column index 0; the right matrix is one block; the body's panel starts at row 0 and at the column
    2048 times the output block's column index. -/
theorem idx_facts : ∀ t : Fin cfg0.N,
      win0_0.index t (0 : Fin 2) = win0_2.index t (0 : Fin 2)
    ∧ win0_0.index t (1 : Fin 2) = 0
    ∧ win0_1.index t (0 : Fin 2) = 0
    ∧ win0_1.index t (1 : Fin 2) = 0
    ∧ k0_off1 (grid0.coords t) (0 : Fin 2) = 0
    ∧ k0_off1 (grid0.coords t) (1 : Fin 2) = win0_2.index t (1 : Fin 2) * 2048 :=
  (by decide +kernel : ∀ t : Fin grid0.N, _)

/-- Every block index (a, b) with a < 8 and b < 4 is some grid point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What point `t` writes back is block `t` of the product of the two argument arrays. -/
theorem flushed_eq (c : Dev nD) (t : Fin cfg0.N) :
    (dats m 0 c).flushed 2 t
      = ((cfg0.win 2).blk t).view.read (Elt Ideal) (product (V m c main_arg0) (V m c main_arg1)) := by
  refine (Value.flushed2_A m c t).trans ?_
  obtain ⟨e0, e1, e2, e3, e4, e5⟩ := idx_facts t
  funext j
  have hj0 : (j 0).val < 1024 := (j 0).isLt
  have hj1 : (j 1).val < 2048 := (j 1).isLt
  refine (congrFun (BodyValue.body_leaves (F := Ideal) c (grid0.coords t) (ms0_0 t) (hs0_0 t) (ms0_1 t) (hs0_1 t)
    (ms0_2 t) (hs0_2 t) (iblk m c 0 t) (iblk m c 1 t)) ((cfg0.win 2).xinj (grid0.coords t) j)).trans ?_
  refine entry_of_blocks (V m c main_arg0) (V m c main_arg1) (iblk m c 0 t)
    (BodyValue.panel (grid0.coords t) (iblk m c 1 t)) ((cfg0.win 2).xinj (grid0.coords t) j)
    (((cfg0.win 2).blk t).view.emb j) (fun k => ?_) (fun k => ?_)
  · -- row (j 0) of the left block is row 1024·a + (j 0) of the left matrix
    show V m c main_arg0 (((cfg0.win 0).blk t).view.emb _) = V m c main_arg0 _
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 64 + 1 * k.val = k.val
      omega
  · -- column (j 1) of the panel is column 2048·b + (j 1) of the right matrix
    show V m c main_arg1 (((cfg0.win 1).blk t).view.emb _) = V m c main_arg1 _
    refine congrArg (V m c main_arg1) (funext fun a => Fin.ext ?_)
    match a with
    | ⟨0, _⟩ =>
      show win0_1.index t (0 : Fin 2) * 64 + 1 * (k0_off1 (grid0.coords t) (0 : Fin 2) + 1 * k.val) = k.val
      omega
    | ⟨1, _⟩ =>
      show win0_1.index t (1 : Fin 2) * 8192 + 1 * (k0_off1 (grid0.coords t) (1 : Fin 2) + 1 * (j 1).val)
        = win0_2.index t (1 : Fin 2) * 2048 + 1 * (j 1).val
      omega

/-- An entry of the output array is in point `t`'s block iff its row and column are in the block's ranges. -/
theorem mem_blk (t : Fin cfg0.N) (i : S8192x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- Every entry of the output array is in the block of the point with block index (row / 1024, column / 2048), and that
    point writes its block back. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- After the run the output array is the product of the two argument arrays. -/
theorem final (c : Dev nD) :
    (dats m 0 c).arrAt 2 cfg0.N = product (V m c main_arg0) (V m c main_arg1) :=
  (dats m 0 c).arrAt_eq_of_cover 2 (product (V m c main_arg0) (V m c main_arg1)) (fun t _ => flushed_eq m c t) cover

/-- The kernel's run: every weakly fair execution terminates with the output array at the product of the arguments and
    the arguments unchanged. -/
theorem run : θ_run defs (onTc (τ := τ) (main (F := Ideal))) ⟨m, fun _ => 0, ρ⟩ fun r => ∀ c : Dev nD,
      r.2.mem ((c : Thread nD τ).loc main_v0) = product (V m c main_arg0) (V m c main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceProduct.lean ====
/-
  The reference's one operation is a matrix product contracting the left factor's columns against the right factor's
  rows. Read at an entry (r, s) it is the sum over k of left (r, k) · right (k, s): the product of `Cert.Product`.
-/
import proofs.«147642_j38276748542446_2_alg».proof.Proof.Gen.ReferenceIdeal.Read
import proofs.«147642_j38276748542446_2_alg».proof.Proof.Product

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The reference's result, as a function of its two arguments, is their matrix product: at entry i the sum runs over
    the left factor's row i 0 and the right factor's column i 1. -/
theorem dot_eq_product (x0 : (⟨S8192x64, .f32⟩ : BufTy).Contents (Elt Ideal)) (x1 : (⟨S64x8192, .f32⟩ : BufTy).Contents (Elt Ideal)) :
    Read.val_main_v0 (F := Ideal) x0 x1 = Cert.Product.product x0 x1 := by
  funext i
  refine (Read.val_main_v0_apply x0 x1 i).trans ?_
  refine (Finset.sum_congr rfl fun k _ => ?_).trans (Cert.Product.product_apply x0 x1 i).symm
  have el : Read.lidx_main_v0 i k = ix2 (i 0) k := funext fun a => Fin.ext (by
    match a with
    | ⟨0, _⟩ => rfl
    | ⟨1, _⟩ => rfl)
  have er : Read.ridx_main_v0 i k = ix2 k (i 1) := funext fun a => Fin.ext (by
    match a with
    | ⟨0, _⟩ => rfl
    | ⟨1, _⟩ => rfl)
  rw [el, er] <;> rfl

end Cert.ReferenceIdeal.RefValue

end
-- ==== Proof.lean ====
/-
  An 8192×64 matrix A times a 64×8192 matrix B.

  The kernel cuts the 8192×8192 output into 8 × 4 blocks of 1024 × 2048 entries. The grid point (a, b) holds rows
  1024·a … 1024·a + 1023 of A and all of B, takes from B the panel of columns 2048·b … 2048·b + 2047, narrows both to
  bf16, multiplies them on the matrix unit into a zero accumulator, and writes the result as output block (a, b). The
  reference is one matrix product of A and B.

  At exact arithmetic a change of float format is the identity and a product into a zero accumulator is a plain sum, so
  entry (p, q) of block (a, b) is the sum over the 64 values of k of A (1024·a + p, k) · B (k, 2048·b + q): entry
  (1024·a + p, 2048·b + q) of the function (r, s) ↦ ∑ₖ A (r, k) · B (k, s) (`Cert.Product.product`). The blocks tile the
  output, every point writes its block back, so the kernel's output array is that function of its arguments
  (Proof/BodyValue, Proof/BlockProduct, Proof/ArrayProduct). The reference's product contracts A's columns against B's
  rows, so its result is the same function (Proof/ReferenceProduct). The two sums run over the same index in the same
  form: no algebraic law is needed, and the inputs' finiteness is not used.

  The three frames are the generated frame of each kernel program and the reference's generated run with its result
  dropped; the ideal pass rewrote nothing, so there is nothing to preserve.
-/
import proofs.«147642_j38276748542446_2_alg».proof.Defs
import proofs.«147642_j38276748542446_2_alg».proof.Proof.Gen.Kernel
import proofs.«147642_j38276748542446_2_alg».proof.Proof.Gen.Kernel.Frame
import proofs.«147642_j38276748542446_2_alg».proof.Proof.Gen.KernelIdeal
import proofs.«147642_j38276748542446_2_alg».proof.Proof.Gen.KernelIdeal.Frame
import proofs.«147642_j38276748542446_2_alg».proof.Proof.Gen.KernelIdeal.Value
import proofs.«147642_j38276748542446_2_alg».proof.Proof.Gen.ReferenceIdeal
import proofs.«147642_j38276748542446_2_alg».proof.Proof.Gen.ReferenceIdeal.Run
import proofs.«147642_j38276748542446_2_alg».proof.Proof.Gen.ReferenceIdeal.Read
import proofs.«147642_j38276748542446_2_alg».proof.Proof.Gen.Pre_finite_inputs
import proofs.«147642_j38276748542446_2_alg».proof.Proof.ArrayProduct
import proofs.«147642_j38276748542446_2_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at exact arithmetic. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with what it says of the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on A and B, the kernel's output array and the reference's result are both the product
    (r, s) ↦ ∑ₖ A (r, k) · B (k, s) of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_product _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
